-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x8192 : Shape := ⟨3, ![64, 64, 8192]⟩
abbrev S64x8192 : Shape := ⟨2, ![64, 8192]⟩
abbrev S_ : Shape := ⟨0, ![]⟩

class Facts : Prop where
  bcast_S_S64x64x8192 : S_.BroadcastsInDim S64x64x8192 (![] : Fin 0 → Fin S64x64x8192.rank)
  reducesTo_S64x64x8192_S_d0_1_2 : S64x64x8192.ReducesTo [0, 1, 2] S_
  h_S_ : 0 < S_.numel

variable [Facts]

def fn {F : FTy → Type} [FloatOps F] (main_arg0 : FVec F S64x64x8192 .f32) (main_arg1 : IVec S64x8192 32) : IVec S_ 1 :=
  let main_v0 : FVec F S64x64x8192 .f32 := Host.absf main_arg0
  let main_cst : FVec F S_ .f32 := constant S_ .f32 0x7F800000#32
  let main_v1 : FVec F S64x64x8192 .f32 := broadcastInDim S64x64x8192 ![] bcast_S_S64x64x8192 main_cst
  let main_v2 : IVec S64x64x8192 1 := cmpf .olt main_v0 main_v1
  let main_c : IVec S_ 1 := constantI S_ 1 1#1
  let main_v3 : IVec S_ 1 := (fun x v => Host.reduce IntOp.andi x v reducesTo_S64x64x8192_S_d0_1_2 h_S_) main_v2 main_c
  main_v3
-- ==== Kernel.lean ====
abbrev S64x64x8192 : Shape := ⟨3, ![64, 64, 8192]⟩
abbrev S64x8192 : Shape := ⟨2, ![64, 8192]⟩
abbrev S64x512x16 : Shape := ⟨3, ![64, 512, 16]⟩
abbrev S64x512x1024 : Shape := ⟨3, ![64, 512, 1024]⟩
abbrev S64x512x1 : Shape := ⟨3, ![64, 512, 1]⟩
abbrev S1x32x8192 : Shape := ⟨3, ![1, 32, 8192]⟩
abbrev S1x512x16 : Shape := ⟨3, ![1, 512, 16]⟩
abbrev S1x512x512 : Shape := ⟨3, ![1, 512, 512]⟩
abbrev S1x512x1 : Shape := ⟨3, ![1, 512, 1]⟩
abbrev S32x8192 : Shape := ⟨2, ![32, 8192]⟩
abbrev S32x512x16 : Shape := ⟨3, ![32, 512, 16]⟩
abbrev S512x32x16 : Shape := ⟨3, ![512, 32, 16]⟩
abbrev S512x512 : Shape := ⟨2, ![512, 512]⟩
abbrev S512x16 : Shape := ⟨2, ![512, 16]⟩
abbrev S512 : Shape := ⟨1, ![512]⟩
abbrev S512x1 : Shape := ⟨2, ![512, 1]⟩
abbrev S64x512 : Shape := ⟨2, ![64, 512]⟩

abbrev nBuf : Space → Nat
  | .hbm => 6
  | .vmem => 8
  | .smem => 0
  | _ => 0

abbrev bufTy : (tb : Table) → Fin (tcTables nBuf tb) → BufTy
  | .hbm, ⟨0, _⟩ => ⟨S64x64x8192, .f32⟩
  | .hbm, ⟨1, _⟩ => ⟨S64x8192, .i32⟩
  | .hbm, ⟨2, _⟩ => ⟨S64x512x16, .i32⟩
  | .hbm, ⟨3, _⟩ => ⟨S64x512x1024, .f32⟩
  | .hbm, ⟨4, _⟩ => ⟨S64x512x1, .f32⟩
  | .hbm, ⟨5, _⟩ => ⟨S64x512, .f32⟩
  | .local _ .vmem, ⟨0, _⟩ => ⟨S1x32x8192, .f32⟩
  | .local _ .vmem, ⟨1, _⟩ => ⟨S1x32x8192, .f32⟩
  | .local _ .vmem, ⟨2, _⟩ => ⟨S1x512x16, .i32⟩
  | .local _ .vmem, ⟨3, _⟩ => ⟨S1x512x16, .i32⟩
  | .local _ .vmem, ⟨4, _⟩ => ⟨S1x512x512, .f32⟩
  | .local _ .vmem, ⟨5, _⟩ => ⟨S1x512x512, .f32⟩
  | .local _ .vmem, ⟨6, _⟩ => ⟨S1x512x1, .f32⟩
  | .local _ .vmem, ⟨7, _⟩ => ⟨S1x512x1, .f32⟩
  | _, _ => ⟨S64x64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x16 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S64x8192_S64x512x16 : S64x8192.ShapeCasts S64x512x16
  inb_S1x32x8192_S1x32x8192_0_0_0 : ∀ a, (![0, 0, 0] : Fin 3 → Nat) a + S1x32x8192.size a ≤ S1x32x8192.size a
  h_S1x32x8192 : 0 < S1x32x8192.numel
  shapeCasts_S1x32x8192_S32x8192 : S1x32x8192.ShapeCasts S32x8192
  shapeCasts_S32x8192_S32x512x16 : S32x8192.ShapeCasts S32x512x16
  transposes_S32x512x16_p1_0_2_S512x32x16 : S32x512x16.Transposes [1, 0, 2] S512x32x16
  shapeCasts_S512x32x16_S512x512 : S512x32x16.ShapeCasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  inb_S1x512x16_S1x512x16_0_0_0 : ∀ a, (![0, 0, 0] : Fin 3 → Nat) a + S1x512x16.size a ≤ S1x512x16.size a
  h_S1x512x16 : 0 < S1x512x16.numel
  shapeCasts_S1x512x16_S512x16 : S1x512x16.ShapeCasts S512x16
  reduces_S512x16_S512 : S512x16.Reduces [1] S512
  shapeCasts_S512_S512x1 : S512.ShapeCasts S512x1
  natLt_1_32 : 1 < 32
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  shapeCasts_S64x512x1_S64x512 : S64x512x1.ShapeCasts S64x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x8192.size a ≤ S64x64x8192.size a
  hwx0_0 : ∀ i : grid0.Coords, EltTy.bits .f32 = 32 ∨ (Rect.block (s := S64x64x8192) S1x32x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x16.size a ≤ S64x512x16.size a
  hwx0_1 : ∀ i : grid0.Coords, EltTy.bits .i32 = 32 ∨ (Rect.block (s := S64x512x16) S1x512x16.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S64x512x1024.size a
  hwx0_2 : ∀ i : grid0.Coords, EltTy.bits .f32 = 32 ∨ (Rect.block (s := S64x512x1024) S1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S64x512x1.size a
  hwx0_3 : ∀ i : grid0.Coords, EltTy.bits .f32 = 32 ∨ (Rect.block (s := S64x512x1) S1x512x1.size (cc0_transform_3 i) (hinb0_3 i)).WholeWords (EltTy.packing .f32)

variable [Facts₀]

abbrev win0_0 : Pipeline.Window sig grid0 :=
  Pipeline.Window.ofSpec (Memref.whole main_arg0) S1x32x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x512x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x64x8192 : Shape := ⟨3, ![64, 64, 8192]⟩
abbrev S64x8192 : Shape := ⟨2, ![64, 8192]⟩
abbrev S512 : Shape := ⟨1, ![512]⟩
abbrev S512x1 : Shape := ⟨2, ![512, 1]⟩
abbrev S_ : Shape := ⟨0, ![]⟩
abbrev S16 : Shape := ⟨1, ![16]⟩
abbrev S1x16 : Shape := ⟨2, ![1, 16]⟩
abbrev S512x16 : Shape := ⟨2, ![512, 16]⟩
abbrev S512x16x1 : Shape := ⟨3, ![512, 16, 1]⟩
abbrev S64x64x512x16 : Shape := ⟨4, ![64, 64, 512, 16]⟩
abbrev S64x512x64x16 : Shape := ⟨4, ![64, 512, 64, 16]⟩
abbrev S64x512x1024 : Shape := ⟨3, ![64, 512, 1024]⟩
abbrev S64x512x16 : Shape := ⟨3, ![64, 512, 16]⟩
abbrev S64x512 : Shape := ⟨2, ![64, 512]⟩

abbrev nBuf : Space → Nat
  | .hbm => 42
  | .vmem => 0
  | .smem => 0
  | _ => 0

abbrev bufTy : (tb : Table) → Fin (tcTables nBuf tb) → BufTy
  | .hbm, ⟨0, _⟩ => ⟨S64x64x8192, .f32⟩
  | .hbm, ⟨1, _⟩ => ⟨S64x8192, .i32⟩
  | .hbm, ⟨2, _⟩ => ⟨S512, .i32⟩
  | .hbm, ⟨3, _⟩ => ⟨S512x1, .i32⟩
  | .hbm, ⟨4, _⟩ => ⟨S_, .i32⟩
  | .hbm, ⟨5, _⟩ => ⟨S512x1, .i32⟩
  | .hbm, ⟨6, _⟩ => ⟨S512x1, .i32⟩
  | .hbm, ⟨7, _⟩ => ⟨S16, .i32⟩
  | .hbm, ⟨8, _⟩ => ⟨S1x16, .i32⟩
  | .hbm, ⟨9, _⟩ => ⟨S512x16, .i32⟩
  | .hbm, ⟨10, _⟩ => ⟨S512x16, .i32⟩
  | .hbm, ⟨11, _⟩ => ⟨S512x16, .i32⟩
  | .hbm, ⟨12, _⟩ => ⟨S_, .i32⟩
  | .hbm, ⟨13, _⟩ => ⟨S512x16, .i32⟩
  | .hbm, ⟨14, _⟩ => ⟨S512x16, .i1⟩
  | .hbm, ⟨15, _⟩ => ⟨S_, .i32⟩
  | .hbm, ⟨16, _⟩ => ⟨S512x16, .i32⟩
  | .hbm, ⟨17, _⟩ => ⟨S512x16, .i32⟩
  | .hbm, ⟨18, _⟩ => ⟨S512x16, .i32⟩
  | .hbm, ⟨19, _⟩ => ⟨S512x16x1, .i32⟩
  | .hbm, ⟨20, _⟩ => ⟨S64x64x512x16, .f32⟩
  | .hbm, ⟨21, _⟩ => ⟨S64x512x64x16, .f32⟩
  | .hbm, ⟨22, _⟩ => ⟨S64x512x1024, .f32⟩
  | .hbm, ⟨23, _⟩ => ⟨S_, .i32⟩
  | .hbm, ⟨24, _⟩ => ⟨S512x16, .i32⟩
  | .hbm, ⟨25, _⟩ => ⟨S512x16, .i1⟩
  | .hbm, ⟨26, _⟩ => ⟨S_, .i32⟩
  | .hbm, ⟨27, _⟩ => ⟨S512x16, .i32⟩
  | .hbm, ⟨28, _⟩ => ⟨S512x16, .i32⟩
  | .hbm, ⟨29, _⟩ => ⟨S512x16, .i32⟩
  | .hbm, ⟨30, _⟩ => ⟨S512x16x1, .i32⟩
  | .hbm, ⟨31, _⟩ => ⟨S64x512x16, .i32⟩
  | .hbm, ⟨32, _⟩ => ⟨S64x512x16, .f32⟩
  | .hbm, ⟨33, _⟩ => ⟨S_, .f32⟩
  | .hbm, ⟨34, _⟩ => ⟨S64x512, .f32⟩
  | .hbm, ⟨35, _⟩ => ⟨S_, .f32⟩
  | .hbm, ⟨36, _⟩ => ⟨S64x512, .f32⟩
  | .hbm, ⟨37, _⟩ => ⟨S64x512, .f32⟩
  | .hbm, ⟨38, _⟩ => ⟨S_, .f32⟩
  | .hbm, ⟨39, _⟩ => ⟨S64x512, .f32⟩
  | .hbm, ⟨40, _⟩ => ⟨S64x512, .i1⟩
  | .hbm, ⟨41, _⟩ => ⟨S64x512, .f32⟩
  | _, _ => ⟨S64x64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_2 : Ref sig .tc := ⟨.hbm, 23, rfl⟩
abbrev main_v18 : Ref sig .tc := ⟨.hbm, 24, rfl⟩
abbrev main_v19 : Ref sig .tc := ⟨.hbm, 25, rfl⟩
abbrev main_c_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]

class Facts₀ : Prop where
  bcast_S512_S512x1_0 : S512.BroadcastsInDim S512x1 (![0] : Fin 1 → Fin S512x1.rank)
  bcast_S_S512x1 : S_.BroadcastsInDim S512x1 (![] : Fin 0 → Fin S512x1.rank)
  bcast_S16_S1x16_1 : S16.BroadcastsInDim S1x16 (![1] : Fin 1 → Fin S1x16.rank)
  bcast_S512x1_S512x16_0_1 : S512x1.BroadcastsInDim S512x16 (![0, 1] : Fin 2 → Fin S512x16.rank)
  bcast_S1x16_S512x16_0_1 : S1x16.BroadcastsInDim S512x16 (![0, 1] : Fin 2 → Fin S512x16.rank)
  bcast_S_S512x16 : S_.BroadcastsInDim S512x16 (![] : Fin 0 → Fin S512x16.rank)
  bcast_S512x16_S512x16x1_0_1 : S512x16.BroadcastsInDim S512x16x1 (![0, 1] : Fin 2 → Fin S512x16x1.rank)
  transposes_S64x64x512x16_S64x512x64x16_0_2_1_3 : S64x64x512x16.Transposes [0, 2, 1, 3] S64x512x64x16
  shapeCasts_S64x512x64x16_S64x512x1024 : S64x512x64x16.ShapeCasts S64x512x1024
  reducesTo_S64x512x16_S64x512_d2 : S64x512x16.ReducesTo [2] S64x512
  h_S_ : 0 < S_.numel
  bcast_S_S64x512 : S_.BroadcastsInDim S64x512 (![] : Fin 0 → Fin S64x512.rank)
  gather_S64x64x8192_S512x16x1_S64x64x512x16_01_2_n_n_2_2_64641_wf : GatherDims.WF S64x64x8192 S512x16x1 S64x64x512x16 [0, 1] [2] [] [2] [] 2 ![64, 64, 1]
  gather_S64x8192_S512x16x1_S64x512x16_0_1_n_n_1_2_641_wf : GatherDims.WF S64x8192 S512x16x1 S64x512x16 [0] [1] [] [1] [] 2 ![64, 1]

variable [Facts₀]

def gather_S64x64x8192_S512x16x1_S64x64x512x16_01_2_n_n_2_2_64641 : GatherDims S64x64x8192 S512x16x1 S64x64x512x16 where
  offsetDims := [0, 1]
  collapsedSliceDims := [2]
  operandBatchingDims := []
  startIndicesBatchingDims := []
  startIndexMap := [2]
  indexVectorDim := 2
  sliceSizes := ![64, 64, 1]
  wf := gather_S64x64x8192_S512x16x1_S64x64x512x16_01_2_n_n_2_2_64641_wf
def gather_S64x8192_S512x16x1_S64x512x16_0_1_n_n_1_2_641 : GatherDims S64x8192 S512x16x1 S64x512x16 where
  offsetDims := [0]
  collapsedSliceDims := [1]
  operandBatchingDims := []
  startIndicesBatchingDims := []
  startIndexMap := [1]
  indexVectorDim := 2
  sliceSizes := ![64, 1]
  wf := gather_S64x8192_S512x16x1_S64x512x16_0_1_n_n_1_2_641_wf

class Facts : Prop extends Facts₀ where

variable [Facts]
-- ==== Proof.Spec.lean ====
/-
  The mathematics of the strided patcher, stated once over literal shapes and with no program in sight.

  The input is a batch of 64 series of 64 channels and 8192 time steps, and a 0/1 integer mask over the 64 × 8192
  (series, time step) pairs. The patch length equals the stride, 16, so the 8192 time steps fall into 512 windows that do
  not overlap: window `n` holds the time steps `16 n + p`, `p < 16`.

  * `patches x` lays every window out as one row of 64 · 16 = 1024 numbers, channel-major: entry `(b, n, 16 c + p)` is
    `x (b, c, 16 n + p)`. Nothing is computed: it is a permutation of the entries of `x`.
  * `windowMask mk` says, per series and window, whether at least half of the window's sixteen mask words are set:
    the sum of the sixteen words (each read as a signed integer, exactly), divided by sixteen, compared with one half;
    the answer is the number 1 or 0. `halfFull` is that test of the sum.

  Both programs of this certificate are shown to compute these two functions of their arguments; the only algebra
  between them is that an exact sum does not depend on how it is started (from the zero word or from nothing) and that
  the one-bit answer read as a signed 32-bit word is the same number as the bit read unsigned.
-/
import Idealize.ShloMosaic.PureOps.Ideal
import Idealize.ShloMosaic.PureOps.Ideal.Laws
import Idealize.ShloMosaic.Lib.ValueIdx

noncomputable section

open scoped BigOperators

namespace Cert.Patcher

open Idealize.ShloMosaic Idealize.ShloMosaic.ValueIdx

/-- The series, channel and time step that entry `(b, n, q)` of the patch array shows: channel `q / 16`, time step
    `16 n + q % 16`. -/
def srcIdx (i : (⟨3, ![64, 512, 1024]⟩ : Shape).Idx) : (⟨3, ![64, 64, 8192]⟩ : Shape).Idx :=
  ix3 (⟨(i 0).val, (i 0).isLt⟩ : Fin 64)
    (⟨(i 2).val / 16, by have h : (i 2).val < 1024 := (i 2).isLt; omega⟩ : Fin 64)
    (⟨(i 1).val * 16 + (i 2).val % 16, by have h : (i 1).val < 512 := (i 1).isLt; omega⟩ : Fin 8192)

/-- The patch array: every entry is the entry of `x` that `srcIdx` names. -/
def patches {α : Type} (x : (⟨3, ![64, 64, 8192]⟩ : Shape).Idx → α) : (⟨3, ![64, 512, 1024]⟩ : Shape).Idx → α :=
  fun i => x (srcIdx i)

/-- The mask word of series `b` at position `p` of window `n`. -/
def maskIdx (b : Fin 64) (n : Fin 512) (p : Fin 16) : (⟨2, ![64, 8192]⟩ : Shape).Idx :=
  ix2 b (⟨n.val * 16 + p.val, by have := n.isLt; have := p.isLt; omega⟩ : Fin 8192)

/-- "At least half": the sum over a window, divided by sixteen (the word `0x41800000`), is at least one half (the word
    `0x3F000000`), as the number 1 or 0. The two literals are the same words in both programs and are never evaluated. -/
def halfFull (s : EReal) : EReal :=
  FloatOps.uitofp (F := Ideal) .f32
    (FloatOps.cmpf (F := Ideal) (φ := .f32) .oge (Ideal.div s (Ideal.ofBits .f32 0x41800000#32)) (Ideal.ofBits .f32 0x3F000000#32))

/-- The number of set mask words in window `n` of series `b` (each word read as a signed integer, exactly). -/
def windowSum (mk : (⟨2, ![64, 8192]⟩ : Shape).Idx → BitVec 32) (b : Fin 64) (n : Fin 512) : EReal :=
  ∑ p : Fin 16, (((mk (maskIdx b n p)).toInt : ℝ) : EReal)

/-- The window mask: per series and window, whether at least half of the window is set. -/
def windowMask (mk : (⟨2, ![64, 8192]⟩ : Shape).Idx → BitVec 32) : (⟨2, ![64, 512]⟩ : Shape).Idx → EReal :=
  fun i => halfFull (windowSum mk ⟨(i 0).val, (i 0).isLt⟩ ⟨(i 1).val, (i 1).isLt⟩)

/-- A bit widened to 32 bits and read signed is the bit read unsigned: both are the number 0 or 1. -/
theorem sitofp_setWidth_bit (c : BitVec 1) :
    FloatOps.sitofp (F := Ideal) .f32 (c.setWidth 32) = FloatOps.uitofp (F := Ideal) .f32 c := by
  rcases BitVec.eq_zero_or_eq_one c with h | h <;> subst h <;> rfl

end Cert.Patcher

end
-- ==== Proof.RefIndex.lean ====
/-
  The table of time steps the reference gathers at, read at an index.

  The reference builds, with 32-bit integer operations, the table whose entry `(n, p)` (window `n < 512`, position
  `p < 16`) is `16 n + p`, and then "wraps" negative entries by adding 8192. No entry is negative and none reaches
  `2^31`, so the wrap is never taken and the entry, read as a signed integer, is the natural number `16 n + p < 8192`;
  clamped into `[0, 8191]` (as a gather clamps its start indices) it is still `16 n + p`.
-/
import proofs.«142915_j53042846106007_2_alg».proof.Proof.RefRead
import Idealize.ShloMosaic.Lib.ValueIdx

noncomputable section

namespace Cert.ReferenceIdeal.Bridge

open Cert.ReferenceIdeal Cert.ReferenceIdeal.Gen Cert.ReferenceIdeal.ReadP Idealize.ShloMosaic Idealize.ShloMosaic.ValueIdx

variable {F : FTy → Type} [FloatOps F]

/-- A natural number below `2^31`, as a 32-bit word read signed, is itself. -/
theorem toInt_ofNat_small (k : Nat) (hk : k < 2147483648) : (BitVec.ofNat 32 k).toInt = (k : Int) := by
  have hN : (BitVec.ofNat 32 k).toNat = k := by
    rw [BitVec.toNat_ofNat]; omega
  rw [BitVec.toInt_eq_toNat_of_lt (by rw [hN]; omega), hN]

/-- The words of the table: `n · 16 + p` computed in 32 bits, with the wrap of negative values, is the word of the
    natural number `16 n + p`. -/
theorem table_word (n p : Nat) (hn : n < 512) (hp : p < 16) :
    Scalar.select
      (IntOp.cmpi .slt (IntOp.addi (IntOp.muli (BitVec.ofNat 32 n) 16#32) (BitVec.ofNat 32 p)) 0#32)
      (IntOp.addi (IntOp.addi (IntOp.muli (BitVec.ofNat 32 n) 16#32) (BitVec.ofNat 32 p)) 8192#32)
      (IntOp.addi (IntOp.muli (BitVec.ofNat 32 n) 16#32) (BitVec.ofNat 32 p))
      = BitVec.ofNat 32 (n * 16 + p) := by
  have h8 : IntOp.addi (IntOp.muli (BitVec.ofNat 32 n) 16#32) (BitVec.ofNat 32 p) = BitVec.ofNat 32 (n * 16 + p) := by
    unfold IntOp.addi IntOp.muli
    rw [show (16#32 : BitVec 32) = BitVec.ofNat 32 16 from rfl, BitVec.ofNat_mul_ofNat, BitVec.ofNat_add_ofNat]
  rw [h8]
  have hslt : (BitVec.ofNat 32 (n * 16 + p)).slt 0#32 = false := by
    rw [BitVec.slt_eq_decide, toInt_ofNat_small _ (by omega), BitVec.toInt_zero]
    exact decide_eq_false (by omega)
  unfold IntOp.cmpi
  simp only [hslt]
  exact if_neg (by decide)

/-- Entry `(n, p)` of the table the patch gather reads is the word of `16 n + p`. -/
theorem table13 (n : Fin 512) (p : Fin 16) :
    val_main_v13 (F := F) (ix2 n p) = BitVec.ofNat 32 (n.val * 16 + p.val) := by
  rw [val_main_v13_apply, val_main_v10_apply, val_main_v12_apply, val_main_v8_apply, val_main_v6_apply, val_main_v7_apply,
    val_main_v3_apply, val_main_v5_apply, val_main_v1_apply, val_main_v2_apply, val_main_v4_apply, val_main_v0_apply,
    val_main_c_apply, val_main_v9_apply, val_main_c_0_apply, val_main_v11_apply, val_main_c_1_apply]
  exact table_word n.val p.val n.isLt p.isLt

/-- Entry `(n, p)` of the table the mask gather reads is the same word. -/
theorem table22 (n : Fin 512) (p : Fin 16) :
    val_main_v22 (F := F) (ix2 n p) = BitVec.ofNat 32 (n.val * 16 + p.val) := by
  rw [val_main_v22_apply, val_main_v19_apply, val_main_v21_apply, val_main_v8_apply, val_main_v6_apply, val_main_v7_apply,
    val_main_v3_apply, val_main_v5_apply, val_main_v1_apply, val_main_v2_apply, val_main_v4_apply, val_main_v0_apply,
    val_main_c_apply, val_main_v18_apply, val_main_c_2_apply, val_main_v20_apply, val_main_c_3_apply]
  exact table_word n.val p.val n.isLt p.isLt

/-- A time step `k < 8192`, as a word read signed and clamped into `[0, 8191]`, is `k`. -/
theorem clamp_word (k : Nat) (hk : k < 8192) : min (BitVec.ofNat 32 k).toInt.toNat (8192 - 1) = k := by
  rw [toInt_ofNat_small k (by omega), Int.toNat_natCast]
  omega

end Cert.ReferenceIdeal.Bridge

end
-- ==== Proof.RefPatches.lean ====
/-
  The reference's patch array is the function `patches` of the specification.

  The reference gathers `x` along its time axis at the table of time steps `16 n + p` (window `n`, position `p`),
  which gives an array indexed by (series, channel, window, position); it then exchanges the channel and window axes and
  flattens (channel, position) into one axis of length `64 · 16`. Reading the three steps backwards at one entry
  `(b, n, q)` gives `x (b, q / 16, 16 n + q % 16)`, which is what `patches` says.
-/
import proofs.«142915_j53042846106007_2_alg».proof.Proof.RefRead
import proofs.«142915_j53042846106007_2_alg».proof.Proof.Spec
import proofs.«142915_j53042846106007_2_alg».proof.Proof.RefIndex

noncomputable section

namespace Cert.ReferenceIdeal.Bridge

open Cert.ReferenceIdeal Cert.ReferenceIdeal.Gen Cert.ReferenceIdeal.ReadP Idealize.ShloMosaic Idealize.ShloMosaic.ValueIdx

variable {F : FTy → Type} [FloatOps F]

/-- The patch gather read at `(b, c, n, p)`: series `b`, channel `c` of `x` at time step `16 n + p`. On the two
    axes it keeps whole the gather reads the result's own coordinate; on the time axis it reads at the table's entry
    `(n, p)`, clamped, which is `16 n + p`. -/
theorem gather15 (x : (⟨S64x64x8192, .f32⟩ : BufTy).Contents (Elt F)) (b c : Fin 64) (n : Fin 512) (p : Fin 16) :
    val_main_v15 (F := F) x (ix4 b c n p)
      = x (ix3 b c (⟨n.val * 16 + p.val, by have := n.isLt; have := p.isLt; omega⟩ : Fin 8192)) := by
  unfold val_main_v15 Host.gather
  refine congrArg x ?_
  funext a
  refine Fin.ext ?_
  match a with
  | ⟨0, _⟩ =>
    show gather_S64x64x8192_S512x16x1_S64x64x512x16_01_2_n_n_2_2_64641.start (ix4 b c n p) (val_main_v14 (F := F)) 0
        + gather_S64x64x8192_S512x16x1_S64x64x512x16_01_2_n_n_2_2_64641.batchCoord (ix4 b c n p) 0
        + gather_S64x64x8192_S512x16x1_S64x64x512x16_01_2_n_n_2_2_64641.offCoord (ix4 b c n p) 0 = b.val
    rw [GatherDims.batchCoord_eq_zero _ _ _ List.not_mem_nil]
    unfold GatherDims.start GatherDims.offCoord
    rw [dif_neg (by decide), dif_pos (by decide)]
    exact Nat.zero_add _
  | ⟨1, _⟩ =>
    show gather_S64x64x8192_S512x16x1_S64x64x512x16_01_2_n_n_2_2_64641.start (ix4 b c n p) (val_main_v14 (F := F)) 1
        + gather_S64x64x8192_S512x16x1_S64x64x512x16_01_2_n_n_2_2_64641.batchCoord (ix4 b c n p) 1
        + gather_S64x64x8192_S512x16x1_S64x64x512x16_01_2_n_n_2_2_64641.offCoord (ix4 b c n p) 1 = c.val
    rw [GatherDims.batchCoord_eq_zero _ _ _ List.not_mem_nil]
    unfold GatherDims.start GatherDims.offCoord
    rw [dif_neg (by decide), dif_pos (by decide)]
    exact Nat.zero_add _
  | ⟨2, _⟩ =>
    show gather_S64x64x8192_S512x16x1_S64x64x512x16_01_2_n_n_2_2_64641.start (ix4 b c n p) (val_main_v14 (F := F)) 2
        + gather_S64x64x8192_S512x16x1_S64x64x512x16_01_2_n_n_2_2_64641.batchCoord (ix4 b c n p) 2
        + gather_S64x64x8192_S512x16x1_S64x64x512x16_01_2_n_n_2_2_64641.offCoord (ix4 b c n p) 2 = n.val * 16 + p.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ gather_S64x64x8192_S512x16x1_S64x64x512x16_01_2_n_n_2_2_64641.startIndexMap from
      List.mem_singleton.mpr rfl)]
    have hsi : gather_S64x64x8192_S512x16x1_S64x64x512x16_01_2_n_n_2_2_64641.siIdx (ix4 b c n p)
        ⟨List.idxOf (2 : Fin 3) gather_S64x64x8192_S512x16x1_S64x64x512x16_01_2_n_n_2_2_64641.startIndexMap,
          List.idxOf_lt_length_iff.2 (List.mem_singleton.mpr rfl)⟩ = ix3 n p (0 : Fin 1) := by
      funext e; refine Fin.ext ?_
      match e with
      | ⟨0, _⟩ => rfl
      | ⟨1, _⟩ => rfl
      | ⟨2, _⟩ => rfl
    rw [hsi, val_main_v14_apply]
    have h14 : idx_main_v14 (ix3 n p (0 : Fin 1)) = ix2 n p := by
      funext e
      match e with
      | ⟨0, _⟩ => rfl
      | ⟨1, _⟩ => rfl
    rw [h14, table13]
    exact clamp_word _ (by have := n.isLt; have := p.isLt; omega)

/-- The reference's patch array is `patches`: the reshape reads entry `(b, n, q)` at `(b, n, q / 16, q % 16)` of the
    transposed array, that is at `(b, q / 16, n, q % 16)` of the gathered one, which is `x (b, q / 16, 16 n + q % 16)`. -/
theorem ref_patches (x : (⟨S64x64x8192, .f32⟩ : BufTy).Contents (Elt Ideal)) :
    val_main_v17 (F := Ideal) x = Cert.Patcher.patches x := by
  funext i
  have h0 : (i 0).val < 64 := (i 0).isLt
  have h1 : (i 1).val < 512 := (i 1).isLt
  have h2 : (i 2).val < 1024 := (i 2).isLt
  rw [val_main_v17_apply, val_main_v16_apply]
  have hidx : idx_main_v16 (idx_main_v17 i)
      = ix4 (⟨(i 0).val, h0⟩ : Fin 64) (⟨(i 2).val / 16, by omega⟩ : Fin 64) (⟨(i 1).val, h1⟩ : Fin 512)
          (⟨(i 2).val % 16, by omega⟩ : Fin 16) := by
    funext a
    refine Fin.ext ?_
    match a with
    | ⟨0, _⟩ => show (((i 0).val * 512 + (i 1).val) * 1024 + (i 2).val) / 524288 = (i 0).val; omega
    | ⟨1, _⟩ => show (((i 0).val * 512 + (i 1).val) * 1024 + (i 2).val) / 16 % 64 = (i 2).val / 16; omega
    | ⟨2, _⟩ => show (((i 0).val * 512 + (i 1).val) * 1024 + (i 2).val) / 1024 % 512 = (i 1).val; omega
    | ⟨3, _⟩ => show (((i 0).val * 512 + (i 1).val) * 1024 + (i 2).val) % 16 = (i 2).val % 16; omega
  rw [hidx, gather15]
  rfl

end Cert.ReferenceIdeal.Bridge

end
-- ==== Proof.RefMask.lean ====
/-
  The reference's window mask is the function `windowMask` of the specification.

  The reference gathers the mask along its time axis at the table of time steps `16 n + p` (window `n`, position
  `p`), reads every gathered word as a signed integer, sums the sixteen words of a window starting from the zero word,
  divides by sixteen and compares with one half. At the exact values a sum started from zero is the plain sum, so per
  series and window this is the "at least half" test of the window's sum, which is what `windowMask` says.
-/
import proofs.«142915_j53042846106007_2_alg».proof.Proof.RefRead
import proofs.«142915_j53042846106007_2_alg».proof.Proof.Spec
import proofs.«142915_j53042846106007_2_alg».proof.Proof.RefIndex

noncomputable section

open scoped BigOperators

namespace Cert.ReferenceIdeal.Bridge

open Cert.ReferenceIdeal Cert.ReferenceIdeal.Gen Cert.ReferenceIdeal.ReadP Idealize.ShloMosaic Idealize.ShloMosaic.ValueIdx

variable {F : FTy → Type} [FloatOps F]

/-- The mask gather read at `(b, n, p)`: series `b` of the mask at time step `16 n + p`. On the series axis the gather
    reads the result's own coordinate; on the time axis it reads at the table's entry `(n, p)`, clamped, which is
    `16 n + p`. -/
theorem gather24 (mk : (⟨S64x8192, .i32⟩ : BufTy).Contents (Elt F)) (b : Fin 64) (n : Fin 512) (p : Fin 16) :
    val_main_v24 (F := F) mk (ix3 b n p)
      = mk (ix2 b (⟨n.val * 16 + p.val, by have := n.isLt; have := p.isLt; omega⟩ : Fin 8192)) := by
  unfold val_main_v24 Host.gather
  refine congrArg mk ?_
  funext a
  refine Fin.ext ?_
  match a with
  | ⟨0, _⟩ =>
    show gather_S64x8192_S512x16x1_S64x512x16_0_1_n_n_1_2_641.start (ix3 b n p) (val_main_v23 (F := F)) 0
        + gather_S64x8192_S512x16x1_S64x512x16_0_1_n_n_1_2_641.batchCoord (ix3 b n p) 0
        + gather_S64x8192_S512x16x1_S64x512x16_0_1_n_n_1_2_641.offCoord (ix3 b n p) 0 = b.val
    rw [GatherDims.batchCoord_eq_zero _ _ _ List.not_mem_nil]
    unfold GatherDims.start GatherDims.offCoord
    rw [dif_neg (by decide), dif_pos (by decide)]
    exact Nat.zero_add _
  | ⟨1, _⟩ =>
    show gather_S64x8192_S512x16x1_S64x512x16_0_1_n_n_1_2_641.start (ix3 b n p) (val_main_v23 (F := F)) 1
        + gather_S64x8192_S512x16x1_S64x512x16_0_1_n_n_1_2_641.batchCoord (ix3 b n p) 1
        + gather_S64x8192_S512x16x1_S64x512x16_0_1_n_n_1_2_641.offCoord (ix3 b n p) 1 = n.val * 16 + p.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S64x8192_S512x16x1_S64x512x16_0_1_n_n_1_2_641.startIndexMap from
      List.mem_singleton.mpr rfl)]
    have hsi : gather_S64x8192_S512x16x1_S64x512x16_0_1_n_n_1_2_641.siIdx (ix3 b n p)
        ⟨List.idxOf (1 : Fin 2) gather_S64x8192_S512x16x1_S64x512x16_0_1_n_n_1_2_641.startIndexMap,
          List.idxOf_lt_length_iff.2 (List.mem_singleton.mpr rfl)⟩ = ix3 n p (0 : Fin 1) := by
      funext e; refine Fin.ext ?_
      match e with
      | ⟨0, _⟩ => rfl
      | ⟨1, _⟩ => rfl
      | ⟨2, _⟩ => rfl
    rw [hsi, val_main_v23_apply]
    have h23 : idx_main_v23 (ix3 n p (0 : Fin 1)) = ix2 n p := by
      funext e
      match e with
      | ⟨0, _⟩ => rfl
      | ⟨1, _⟩ => rfl
    rw [h23, table22]
    exact clamp_word _ (by have := n.isLt; have := p.isLt; omega)

/-- The reference's window mask is `windowMask`: per series and window it sums, from the zero word, the sixteen gathered
    mask words read as signed integers, divides by sixteen and compares with one half. Started from zero the sum is the
    plain sum, and the gathered word at position `p` of window `n` is the mask at time step `16 n + p`. -/
theorem ref_mask (mk : (⟨S64x8192, .i32⟩ : BufTy).Contents (Elt Ideal)) :
    val_main_v31 (F := Ideal) mk = Cert.Patcher.windowMask mk := by
  funext i
  have h0 : (i 0).val < 64 := (i 0).isLt
  have h1 : (i 1).val < 512 := (i 1).isLt
  have hterm : ∀ k : Fin 16, val_main_v25 (F := Ideal) mk (idx_main_v26 i k)
      = (((mk (Cert.Patcher.maskIdx ⟨(i 0).val, h0⟩ ⟨(i 1).val, h1⟩ k)).toInt : ℝ) : EReal) := by
    intro k
    have hk : idx_main_v26 i k = ix3 (⟨(i 0).val, h0⟩ : Fin 64) (⟨(i 1).val, h1⟩ : Fin 512) k := by
      funext a
      match a with
      | ⟨0, _⟩ => rfl
      | ⟨1, _⟩ => rfl
      | ⟨2, _⟩ => rfl
    rw [val_main_v25_apply, hk, gather24]
    rfl
  rw [val_main_v31_apply, val_main_v30_apply, val_main_v28_apply, val_main_v26_apply, val_main_v27_apply,
    val_main_v29_apply, val_main_cst_apply, val_main_cst_4_apply, val_main_cst_5_apply]
  rw [Finset.sum_congr rfl (fun k _ => hterm k)]
  show FloatOps.uitofp (F := Ideal) .f32 (FloatOps.cmpf (F := Ideal) (φ := .f32) .oge
      (Ideal.div (Ideal.ofBits .f32 0x00000000#32 + ∑ k : Fin 16,
        (((mk (Cert.Patcher.maskIdx ⟨(i 0).val, h0⟩ ⟨(i 1).val, h1⟩ k)).toInt : ℝ) : EReal))
        (Ideal.ofBits .f32 0x41800000#32)) (Ideal.ofBits .f32 0x3F000000#32)) = _
  rw [Ideal.ofBits_zero_f32, zero_add]
  rfl

end Cert.ReferenceIdeal.Bridge

end
-- ==== Proof.KerPayload.lean ====
/-
  What one grid step of the kernel stores, read entry by entry.

  A step holds a block `xb` of 32 channels × 8192 time steps (with a leading axis of extent one) and the 512 × 16 table
  `mb` of one series' mask words, one row per window.

  * The patch block it stores is 512 × 512: the 8192 time steps are split into 512 windows of 16, the channel and window
    axes are exchanged, and channel and position are merged into one axis of 32 · 16 = 512. So entry `(n, q)` is
    `xb (q / 16, 16 n + q % 16)` (`patchBlock_apply`): four changes of shape and one exchange of axes, each read at an index
    by the equality of row-major positions.
  * The window-mask column it stores is 512 × 1: row `n` is the "at least half" test (`Cert.Patcher.halfFull`) of the
    exact sum of the sixteen mask words of row `n` (`maskColumn_apply`). The sum starts from nothing here (the reduction's
    accumulator is the neutral word), and the one-bit answer is widened to 32 bits before it is read as a number, which
    does not change the number.
-/
import proofs.«142915_j53042846106007_2_alg».proof.Proof.Gen.KernelIdeal.Skeleton
import proofs.«142915_j53042846106007_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- Entry `(n, q)` of the stored patch block is the loaded block at channel `q / 16`, time step `16 n + q % 16`. -/
theorem patchBlock_apply {F : FTy → Type} [FloatOps F] (xb : Vec F S1x32x8192 .f32) (n q : Fin 512) :
    k0_pay1 xb (ix3 (0 : Fin 1) n q)
      = xb (ix3 (0 : Fin 1) (⟨q.val / 16, by have := q.isLt; omega⟩ : Fin 32)
          (⟨n.val * 16 + q.val % 16, by have := n.isLt; omega⟩ : Fin 8192)) := by
  have hn : n.val < 512 := n.isLt
  have hq : q.val < 512 := q.isLt
  unfold k0_pay1
  -- the leading unit axis of the stored block
  refine (shapeCast_apply _ _ (ix3 (0 : Fin 1) n q) (ix2 n q) ?_).trans ?_
  · rw [Shape.rowMajor_val_two, Shape.rowMajor_val_three]
    show n.val * 512 + q.val = (0 * 512 + n.val) * 512 + q.val
    omega
  -- channel and position merged into one axis
  refine (shapeCast_apply _ _ (ix2 n q) (ix3 n (⟨q.val / 16, by omega⟩ : Fin 32) (⟨q.val % 16, by omega⟩ : Fin 16)) ?_).trans ?_
  · rw [Shape.rowMajor_val_two, Shape.rowMajor_val_three]
    show (n.val * 32 + q.val / 16) * 16 + q.val % 16 = n.val * 512 + q.val
    omega
  -- channel and window exchanged
  refine (transpose_apply [1, 0, 2] _ _ _ (ix3 (⟨q.val / 16, by omega⟩ : Fin 32) n (⟨q.val % 16, by omega⟩ : Fin 16)) ?_).trans ?_
  · intro b
    match b with
    | ⟨0, _⟩ => rfl
    | ⟨1, _⟩ => rfl
    | ⟨2, _⟩ => rfl
  -- the time axis split into windows
  refine (shapeCast_apply _ _ _ (ix2 (⟨q.val / 16, by omega⟩ : Fin 32) (⟨n.val * 16 + q.val % 16, by omega⟩ : Fin 8192)) ?_).trans ?_
  · rw [Shape.rowMajor_val_two, Shape.rowMajor_val_three]
    show q.val / 16 * 8192 + (n.val * 16 + q.val % 16) = (q.val / 16 * 512 + n.val) * 16 + q.val % 16
    omega
  -- the leading unit axis of the loaded block
  refine shapeCast_apply _ _ _ _ ?_
  rw [Shape.rowMajor_val_two, Shape.rowMajor_val_three]
  show (0 * 32 + q.val / 16) * 8192 + (n.val * 16 + q.val % 16) = q.val / 16 * 8192 + (n.val * 16 + q.val % 16)
  omega

/-- The sum over the sixteen lanes of row `n` of a 512 × 16 table, started from the neutral word: the plain sum of the row. -/
theorem laneSum_apply (src : FVec Ideal S512x16 .f32) (hφ : FKind.Formats .f32)
    (hacc : (0x00000000#32 : BitVec 32) = FKind.add.neutral .f32 hφ) (n : Fin 512) :
    multiReduction .add [(1 : Fin 2)] S512 src 0x00000000#32 reduces_S512x16_S512 hφ hacc (ix1 n) = ∑ p : Fin 16, src (ix2 n p) := by
  refine (Ideal.multiReduction_add_single src 0x00000000#32 reduces_S512x16_S512 hφ hacc (ix1 n)).trans ?_
  refine Finset.sum_congr rfl fun p _ => congrArg src ?_
  funext a
  match a with
  | ⟨0, _⟩ => rfl
  | ⟨1, _⟩ => rfl

/-- Row `n` of the stored window-mask column is the "at least half" test of the exact sum of row `n`'s sixteen words. -/
theorem maskColumn_apply (mb : Vec Ideal S1x512x16 .i32) (n : Fin 512) :
    k0_pay2 (F := Ideal) mb (ix3 (0 : Fin 1) n (0 : Fin 1))
      = Cert.Patcher.halfFull (∑ p : Fin 16, (((mb (ix3 (0 : Fin 1) n p)).toInt : ℝ) : EReal)) := by
  have hn : n.val < 512 := n.isLt
  unfold k0_pay2
  -- the leading unit axis of the stored column
  refine (shapeCast_apply _ _ (ix3 (0 : Fin 1) n (0 : Fin 1)) (ix2 n (0 : Fin 1)) ?_).trans ?_
  · rw [Shape.rowMajor_val_two, Shape.rowMajor_val_three]
    show n.val * 1 + 0 = (0 * 512 + n.val) * 1 + 0
    omega
  -- the bit, widened and read signed, is the bit read unsigned
  refine (Cert.Patcher.sitofp_setWidth_bit _).trans ?_
  unfold Cert.Patcher.halfFull
  refine congrArg (FloatOps.uitofp (F := Ideal) .f32) ?_
  refine congrArg (fun s => FloatOps.cmpf (F := Ideal) (φ := .f32) .oge (Ideal.div s (Ideal.ofBits .f32 0x41800000#32)) (Ideal.ofBits .f32 0x3F000000#32)) ?_
  -- the column's one axis of extent one
  refine (shapeCast_apply _ _ (ix2 n (0 : Fin 1)) (ix1 n) ?_).trans ?_
  · rw [Shape.rowMajor_val_one, Shape.rowMajor_val_two]
    show n.val = n.val * 1 + 0
    omega
  -- the lane sum is the sum over the sixteen positions
  refine (laneSum_apply _ _ _ n).trans ?_
  refine Finset.sum_congr rfl fun p _ => ?_
  refine congrArg (fun w : BitVec 32 => ((w.toInt : ℝ) : EReal)) ?_
  refine shapeCast_apply _ _ (ix2 n p) (ix3 (0 : Fin 1) n p) ?_
  rw [Shape.rowMajor_val_two, Shape.rowMajor_val_three]
  show (0 * 512 + n.val) * 16 + p.val = n.val * 16 + p.val
  omega

end Cert.KernelIdeal.Body

end
-- ==== Proof.KerPatchArray.lean ====
/-
  The patch array after the kernel's run.

  The grid has 64 × 2 steps; step `t` works on series `b = t / 2` and on the channel group `g = t % 2` (32 of the 64
  channels). It reads block `(b, g, 0)` of the input — 32 channels × 8192 time steps — and writes back block `(b, 0, g)`
  of the patch array — 512 windows × 512 columns, the columns `512 g … 512 g + 511`. Entry `(n, q)` of what it writes is
  the input block at channel `q / 16`, time step `16 n + q % 16` (`Cert.KernelIdeal.Body.patchBlock_apply`), which is the
  input array at `(b, 32 g + q / 16, 16 n + q % 16)`; and entry `(b, n, 512 g + q)` of `Cert.Patcher.patches` is the input
  at channel `(512 g + q) / 16 = 32 g + q / 16`, time step `16 n + (512 g + q) % 16 = 16 n + q % 16`: the same entry. So
  every step writes back its block of ONE function of the input (`flushed_patches`); the 128 blocks cover the array
  (entry `(b, n, col)` lies in the block of the step with `b` and `g = col / 512`), so the array ends holding that
  function (`final_patches`).
-/
import proofs.«142915_j53042846106007_2_alg».proof.Proof.Gen.KernelIdeal.Frame
import proofs.«142915_j53042846106007_2_alg».proof.Proof.KerPayload
import proofs.«142915_j53042846106007_2_alg».proof.Proof.Spec
import Idealize.ShloMosaic.Lib.Pipeline.Value
import Idealize.ShloMosaic.Lib.ValueIdx

set_option maxRecDepth 16384

noncomputable section

namespace Cert.KernelIdeal.PatchArray

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ)

theorem zeroOffsets : (![0, 0, 0] : Fin 3 → Nat) = fun _ => 0 := funext fun a => by fin_cases a <;> rfl

/-- One step, over plain variables: if the loaded block `xb` is rows `32 g … 32 g + 31` of series `b` of the array `X`,
    the stored block at `y` is the patch array of `X` at `(b, y₁, 512 g + y₂)`. -/
theorem patch_point (X : S64x64x8192.Idx → Elt F .f32) (xb : Vec F S1x32x8192 .f32) (b g : Nat) (hb : b < 64) (hg : g < 2)
    (hxb : ∀ (ch : Fin 32) (k : Fin 8192), xb (ix3 (0 : Fin 1) ch k)
      = X (ix3 (⟨b, hb⟩ : Fin 64) (⟨g * 32 + ch.val, by have := ch.isLt; omega⟩ : Fin 64) k))
    (y : S1x512x512.Idx) (i : S64x512x1024.Idx)
    (hi0 : (i 0).val = b) (hi1 : (i 1).val = (y 1).val) (hi2 : (i 2).val = g * 512 + (y 2).val) :
    k0_pay1 xb y = Cert.Patcher.patches X i := by
  have hy1 : (y 1).val < 512 := (y 1).isLt
  have hy2 : (y 2).val < 512 := (y 2).isLt
  have hy : y = ix3 (0 : Fin 1) (⟨(y 1).val, hy1⟩ : Fin 512) (⟨(y 2).val, hy2⟩ : Fin 512) := by
    funext a
    match a with
    | ⟨0, _⟩ => exact Fin.ext (by have h : (y 0).val < 1 := (y 0).isLt; show (y 0).val = 0; omega)
    | ⟨1, _⟩ => rfl
    | ⟨2, _⟩ => rfl
  rw [hy, Cert.KernelIdeal.Body.patchBlock_apply, hxb]
  unfold Cert.Patcher.patches Cert.Patcher.srcIdx
  refine congrArg X (funext fun a => Fin.ext ?_)
  match a with
  | ⟨0, _⟩ => show b = (i 0).val; omega
  | ⟨1, _⟩ => show g * 32 + (y 2).val / 16 = (i 2).val / 16; omega
  | ⟨2, _⟩ => show (y 1).val * 16 + (y 2).val % 16 = (i 1).val * 16 + (i 2).val % 16; omega

/-- The printed index maps over the 128 steps: the input block and the output block of a step have the same series,
    the input's channel-group index is the output's column-block index, and every other block index is zero. -/
theorem step_indices : ∀ t : Fin cfg0.N,
    win0_0.index t (0 : Fin 3) = win0_2.index t (0 : Fin 3)
    ∧ win0_0.index t (1 : Fin 3) = win0_2.index t (2 : Fin 3)
    ∧ win0_0.index t (2 : Fin 3) = 0
    ∧ win0_2.index t (1 : Fin 3) = 0
    ∧ win0_2.index t (0 : Fin 3) < 64
    ∧ win0_2.index t (2 : Fin 3) < 2 :=
  (by decide +kernel : ∀ t : Fin grid0.N, _)

/-- Every (series, column block) pair is some step's output block. -/
theorem step_onto : ∀ (q0 : Fin 64) (q2 : Fin 2), ∃ t : Fin cfg0.N, win0_2.index t = ![q0.val, 0, q2.val] :=
  (by decide +kernel : ∀ (q0 : Fin 64) (q2 : Fin 2), ∃ t : Fin grid0.N, win0_2.index t = ![q0.val, 0, q2.val])

/-- The input block of step `t` is the input array read at block index times block size plus the position inside. -/
theorem inputBlock_apply (c : Dev nD) (t : Fin cfg0.N) (y : S1x32x8192.Idx) (k : S64x64x8192.Idx)
    (hk0 : (k 0).val = win0_0.index t (0 : Fin 3) * 1 + (y 0).val)
    (hk1 : (k 1).val = win0_0.index t (1 : Fin 3) * 32 + (y 1).val)
    (hk2 : (k 2).val = win0_0.index t (2 : Fin 3) * 8192 + (y 2).val) :
    (iblk m c 0 t : Vec F S1x32x8192 .f32) y = (m ((c : Thread nD τ).loc main_arg0) : S64x64x8192.Idx → Elt F .f32) k := by
  unfold iblk
  rw [View.read_apply]
  show V m c main_arg0 _ = m (c.tc.loc main_arg0) _
  rw [V_main_arg0]
  congr 1
  funext a
  apply Fin.ext
  match a with
  | ⟨0, _⟩ => show win0_0.index t (0 : Fin 3) * 1 + 1 * (y 0).val = (k 0).val; omega
  | ⟨1, _⟩ => show win0_0.index t (1 : Fin 3) * 32 + 1 * (y 1).val = (k 1).val; omega
  | ⟨2, _⟩ => show win0_0.index t (2 : Fin 3) * 8192 + 1 * (y 2).val = (k 2).val; omega

/-- WHAT STEP `t` WRITES BACK is its block of the patch array of the input. -/
theorem flushed_patches (c : Dev nD) (t : Fin cfg0.N) :
    (dats m 0 c).flushed 2 t
      = ((cfg0.win 2).blk t).view.read (Elt F) (Cert.Patcher.patches (m ((c : Thread nD τ).loc main_arg0))) := by
  show (cfg0.win 2).cut (grid0.coords t) ((dats m 0 c).after 2 t) = _
  rw [after0_2]
  unfold out0_2
  rw [View.canon_unit_zero zeroOffsets]
  simp only [View.ld_unit_zero (S := S1x32x8192) zeroOffsets]
  obtain ⟨e0, e1, e2, e3, e4, e5⟩ := step_indices t
  funext j
  show k0_pay1 (iblk m c 0 t) (fun a => ⟨(j a).val, _⟩)
    = Cert.Patcher.patches (m ((c : Thread nD τ).loc main_arg0)) (((cfg0.win 2).blk t).view.emb j)
  refine patch_point (m ((c : Thread nD τ).loc main_arg0)) (iblk m c 0 t) (win0_2.index t (0 : Fin 3)) (win0_2.index t (2 : Fin 3))
    e4 e5 (fun ch k => ?_) _ _ ?_ ?_ ?_
  · refine inputBlock_apply m c t _ _ ?_ ?_ ?_
    · show win0_2.index t (0 : Fin 3) = win0_0.index t (0 : Fin 3) * 1 + 0; omega
    · show win0_2.index t (2 : Fin 3) * 32 + ch.val = win0_0.index t (1 : Fin 3) * 32 + ch.val; omega
    · show k.val = win0_0.index t (2 : Fin 3) * 8192 + k.val; omega
  · show win0_2.index t (0 : Fin 3) * 1 + 1 * (j 0).val = win0_2.index t (0 : Fin 3)
    have h : (j 0).val < 1 := (j 0).isLt
    omega
  · show win0_2.index t (1 : Fin 3) * 512 + 1 * (j 1).val = (j 1).val
    omega
  · show win0_2.index t (2 : Fin 3) * 512 + 1 * (j 2).val = win0_2.index t (2 : Fin 3) * 512 + (j 2).val
    omega

/-- An entry of the patch array is in step `t`'s block iff each coordinate is in the block's range on its axis. -/
theorem mem_block (t : Fin cfg0.N) (i : S64x512x1024.Idx) :
    i ∈ ((cfg0.win 2).blk t).view.set ↔ ∀ a : Fin 3, win0_2.index t a * S1x512x512.size a ≤ (i a).val
      ∧ (i a).val < win0_2.index t a * S1x512x512.size a + S1x512x512.size a := by
  show i ∈ ((View.whole main_v1_0).slice (win0_2.rect t)).set ↔ _
  rw [View.set_slice_whole, Rect.mem_set_unit]
  exact Iff.rfl

/-- Every entry of the patch array lies in some step's block. -/
theorem covered (i : S64x512x1024.Idx) :
    ∃ t : Fin cfg0.N, (cfg0.win 2).flush t = true ∧ i ∈ ((cfg0.win 2).blk t).view.set := by
  have hi0 : (i 0).val < 64 := (i 0).isLt
  have hi1 : (i 1).val < 512 := (i 1).isLt
  have hi2 : (i 2).val < 1024 := (i 2).isLt
  obtain ⟨t, ht⟩ := step_onto ⟨(i 0).val, hi0⟩ ⟨(i 2).val / 512, by omega⟩
  have q0 : win0_2.index t (0 : Fin 3) = (i 0).val := congrFun ht 0
  have q1 : win0_2.index t (1 : Fin 3) = 0 := congrFun ht 1
  have q2 : win0_2.index t (2 : Fin 3) = (i 2).val / 512 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 512 ≤ (i 2).val ∧ (i 2).val < win0_2.index t (2 : Fin 3) * 512 + 512; omega

/-- THE PATCH ARRAY after the run is the patch array of the input. -/
theorem final_patches (c : Dev nD) :
    (dats m 0 c).arrAt 2 cfg0.N = Cert.Patcher.patches (m ((c : Thread nD τ).loc main_arg0)) :=
  (dats m 0 c).arrAt_eq_of_cover 2 _ (fun t _ => flushed_patches m c t) covered

end Cert.KernelIdeal.PatchArray

end
-- ==== Proof.KerMaskArray.lean ====
/-
  The window-mask column after the kernel's run, and the program's second result.

  The grid has 64 × 2 steps; step `t` works on series `b = t / 2`. Before the steps the mask, 64 × 8192 words, is
  re-read as 64 × 512 × 16: word `(b, n, p)` is the mask word of series `b` at time step `16 n + p`. A step reads block
  `(b, 0, 0)` of that array — the 512 × 16 table of series `b`, one row per window — and, on its second visit to the
  series, writes back block `(b, 0, 0)` of the 64 × 512 × 1 column array: row `n` is the "at least half" test of the sum
  of row `n` of the table (`Cert.KernelIdeal.Body.maskColumn_apply`), that is of the sixteen mask words of window `n` of
  series `b`. So every step holds its block of ONE function of the mask (`flushed_mask`); the blocks written back cover
  the column array (entry `(b, n, 0)` lies in the block of series `b`), so the array ends holding that function
  (`final_mask`). After the steps the column array is re-read as 64 × 512, entry `(b, n)` from `(b, n, 0)`: the window
  mask of the specification (`tail_mask`).
-/
import proofs.«142915_j53042846106007_2_alg».proof.Proof.Gen.KernelIdeal.Frame
import proofs.«142915_j53042846106007_2_alg».proof.Proof.KerPayload
import proofs.«142915_j53042846106007_2_alg».proof.Proof.Spec
import Idealize.ShloMosaic.Lib.Pipeline.Value
import Idealize.ShloMosaic.Lib.Pipeline.FrameSuffix
import Idealize.ShloMosaic.Lib.StableHlo.Run
import Idealize.ShloMosaic.Lib.ValueIdx

set_option maxRecDepth 16384

noncomputable section

open scoped BigOperators

namespace Cert.KernelIdeal.MaskArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zeroOffsets : (![0, 0, 0] : Fin 3 → Nat) = fun _ => 0 := funext fun a => by fin_cases a <;> rfl

/-- The window-mask column as one function of the mask: entry `(b, n, 0)` is the "at least half" test of the sum of the
    sixteen mask words of window `n` of series `b`. -/
def maskCol (mk : S64x8192.Idx → BitVec 32) : S64x512x1.Idx → EReal :=
  fun i => Cert.Patcher.halfFull (Cert.Patcher.windowSum mk ⟨(i 0).val, (i 0).isLt⟩ ⟨(i 1).val, (i 1).isLt⟩)

/-- The array the steps read is the mask re-read as 64 × 512 × 16. -/
theorem entry_v0 (c : Dev nD) :
    (V m c main_v0 : S64x512x16.Idx → BitVec 32)
      = shapeCast S64x512x16 (m ((c : Thread nD τ).loc main_arg1)) shapeCasts_S64x8192_S64x512x16 := by
  show StableHlo.after hostOps0 (fun b => m (c, b)) (Proc.devRef .tc main_v0) = _
  after_results
  rfl

/-- One step, over plain variables: if the loaded table `mb` is series `b` of the mask `mk`, row by row, the stored
    column at `y` is the column array of `mk` at `(b, y₁, ·)`. -/
theorem mask_point (mb : Vec Ideal S1x512x16 .i32) (mk : S64x8192.Idx → BitVec 32) (b : Nat) (hb : b < 64)
    (hmb : ∀ (n : Fin 512) (p : Fin 16), mb (ix3 (0 : Fin 1) n p) = mk (Cert.Patcher.maskIdx ⟨b, hb⟩ n p))
    (y : S1x512x1.Idx) (i : S64x512x1.Idx) (hi0 : (i 0).val = b) (hi1 : (i 1).val = (y 1).val) :
    k0_pay2 (F := Ideal) mb y = maskCol mk i := by
  have hy1 : (y 1).val < 512 := (y 1).isLt
  have hy : y = ix3 (0 : Fin 1) (⟨(y 1).val, hy1⟩ : Fin 512) (0 : Fin 1) := by
    funext a
    match a with
    | ⟨0, _⟩ => exact Fin.ext (by have h : (y 0).val < 1 := (y 0).isLt; show (y 0).val = 0; omega)
    | ⟨1, _⟩ => rfl
    | ⟨2, _⟩ => exact Fin.ext (by have h : (y 2).val < 1 := (y 2).isLt; show (y 2).val = 0; omega)
  rw [hy, Cert.KernelIdeal.Body.maskColumn_apply]
  unfold maskCol Cert.Patcher.windowSum
  refine congrArg Cert.Patcher.halfFull (Finset.sum_congr rfl fun p _ => ?_)
  rw [hmb]
  have e0 : (⟨b, hb⟩ : Fin 64) = ⟨(i 0).val, (i 0).isLt⟩ := Fin.ext hi0.symm
  have e1 : (⟨(y 1).val, hy1⟩ : Fin 512) = ⟨(i 1).val, (i 1).isLt⟩ := Fin.ext hi1.symm
  rw [e0, e1]

/-- The printed index maps over the 128 steps: the table block and the column block of a step have the same series,
    every other block index is zero, and the series index is below 64. -/
theorem step_indices : ∀ t : Fin cfg0.N,
    win0_1.index t (0 : Fin 3) = win0_3.index t (0 : Fin 3)
    ∧ win0_1.index t (1 : Fin 3) = 0
    ∧ win0_1.index t (2 : Fin 3) = 0
    ∧ win0_3.index t (1 : Fin 3) = 0
    ∧ win0_3.index t (2 : Fin 3) = 0
    ∧ win0_3.index t (0 : Fin 3) < 64 :=
  (by decide +kernel : ∀ t : Fin grid0.N, _)

/-- Every series is the column block of some step that writes its column back. -/
theorem step_onto : ∀ q : Fin 64, ∃ t : Fin cfg0.N, (cfg0.win 3).flush t = true ∧ win0_3.index t = ![q.val, 0, 0] :=
  (by decide +kernel : ∀ q : Fin 64, ∃ t : Fin grid0.N, win0_3.flush t = true ∧ win0_3.index t = ![q.val, 0, 0])

/-- The table block of step `t` is the mask read at the step's series, time step `16 · row + position`: the block sits
    at block index times block size plus the position inside, and the re-reading of the mask as 64 × 512 × 16 keeps
    row-major positions. -/
theorem maskBlock_apply (c : Dev nD) (t : Fin cfg0.N) (y : S1x512x16.Idx) (k : S64x8192.Idx)
    (h1 : win0_1.index t (1 : Fin 3) = 0) (h2 : win0_1.index t (2 : Fin 3) = 0)
    (hk0 : (k 0).val = win0_1.index t (0 : Fin 3))
    (hk1 : (k 1).val = (y 1).val * 16 + (y 2).val) :
    (iblk m c 1 t : Vec Ideal S1x512x16 .i32) y = (m ((c : Thread nD τ).loc main_arg1) : S64x8192.Idx → BitVec 32) k := by
  have hy0 : (y 0).val < 1 := (y 0).isLt
  unfold iblk
  rw [View.read_apply]
  show V m c main_v0 _ = m (c.tc.loc main_arg1) _
  rw [entry_v0]
  refine shapeCast_apply _ _ _ k ?_
  rw [Shape.rowMajor_val_two, Shape.rowMajor_val_three]
  show (k 0).val * 8192 + (k 1).val
    = ((win0_1.index t (0 : Fin 3) * 1 + 1 * (y 0).val) * 512 + (win0_1.index t (1 : Fin 3) * 512 + 1 * (y 1).val)) * 16
      + (win0_1.index t (2 : Fin 3) * 16 + 1 * (y 2).val)
  omega

/-- WHAT STEP `t` HOLDS FOR WRITING BACK is its block of the column array of the mask. -/
theorem flushed_mask (c : Dev nD) (t : Fin cfg0.N) :
    (dats m 0 c).flushed 3 t
      = ((cfg0.win 3).blk t).view.read (Elt Ideal) (maskCol (m ((c : Thread nD τ).loc main_arg1))) := by
  show (cfg0.win 3).cut (grid0.coords t) ((dats m 0 c).after 3 t) = _
  rw [after0_3]
  unfold out0_3
  rw [View.canon_unit_zero zeroOffsets]
  simp only [View.ld_unit_zero (S := S1x512x16) zeroOffsets]
  obtain ⟨e0, e1, e2, e3, e4, e5⟩ := step_indices t
  funext j
  show k0_pay2 (iblk m c 1 t) (fun a => ⟨(j a).val, _⟩)
    = maskCol (m ((c : Thread nD τ).loc main_arg1)) (((cfg0.win 3).blk t).view.emb j)
  refine mask_point (iblk m c 1 t) (m ((c : Thread nD τ).loc main_arg1)) (win0_3.index t (0 : Fin 3)) e5
    (fun n p => ?_) _ _ ?_ ?_
  · refine maskBlock_apply m c t _ _ e1 e2 ?_ ?_
    · show win0_3.index t (0 : Fin 3) = win0_1.index t (0 : Fin 3); omega
    · show n.val * 16 + p.val = n.val * 16 + p.val; rfl
  · show win0_3.index t (0 : Fin 3) * 1 + 1 * (j 0).val = win0_3.index t (0 : Fin 3)
    have h : (j 0).val < 1 := (j 0).isLt
    omega
  · show win0_3.index t (1 : Fin 3) * 512 + 1 * (j 1).val = (j 1).val
    omega

/-- An entry of the column array is in step `t`'s block iff each coordinate is in the block's range on its axis. -/
theorem mem_block (t : Fin cfg0.N) (i : S64x512x1.Idx) :
    i ∈ ((cfg0.win 3).blk t).view.set ↔ ∀ a : Fin 3, win0_3.index t a * S1x512x1.size a ≤ (i a).val
      ∧ (i a).val < win0_3.index t a * S1x512x1.size a + S1x512x1.size a := by
  show i ∈ ((View.whole main_v1_1).slice (win0_3.rect t)).set ↔ _
  rw [View.set_slice_whole, Rect.mem_set_unit]
  exact Iff.rfl

/-- Every entry of the column array lies in the block of a step that writes its column back: the step of its series. -/
theorem covered (i : S64x512x1.Idx) :
    ∃ t : Fin cfg0.N, (cfg0.win 3).flush t = true ∧ i ∈ ((cfg0.win 3).blk t).view.set := by
  have hi0 : (i 0).val < 64 := (i 0).isLt
  have hi1 : (i 1).val < 512 := (i 1).isLt
  have hi2 : (i 2).val < 1 := (i 2).isLt
  obtain ⟨t, hf, ht⟩ := step_onto ⟨(i 0).val, hi0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, hf, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1 ≤ (i 2).val ∧ (i 2).val < win0_3.index t (2 : Fin 3) * 1 + 1; omega

/-- THE COLUMN ARRAY after the run is the column array of the mask. -/
theorem final_mask (c : Dev nD) :
    (dats m 0 c).arrAt 3 cfg0.N = maskCol (m ((c : Thread nD τ).loc main_arg1)) :=
  (dats m 0 c).arrAt_eq_of_cover 3 _ (fun t _ => flushed_mask m c t) covered

/-- THE PROGRAM'S SECOND RESULT: the column array re-read as 64 × 512 is the window mask of the mask argument. Entry
    `(b, n)` has the row-major position of entry `(b, n, 0)` of the column array. -/
theorem tail_mask (c : Dev nD) :
    Pipeline.afterTail₀ cfgs (dats m) 0 (V0 m) [hostOps1] c main_v2
      = Cert.Patcher.windowMask (m ((c : Thread nD τ).loc main_arg1)) := by
  unfold Pipeline.afterTail₀
  show StableHlo.after hostOps1 _ (Proc.devRef .tc main_v2) = _
  after_results
  have hW : Pipeline.withArrays (cfgs 0).spec c (V0 m c) (fun w => (dats m 0 c).arrAt w (cfgs 0).N)
      (Proc.devRef .tc main_v1_1) = maskCol (m ((c : Thread nD τ).loc main_arg1)) :=
    (Pipeline.withArrays_arr spec0 launch0.win.arr_inj c _ _ 3).trans (final_mask m c)
  refine funext fun (i : S64x512.Idx) => ?_
  have hi0 : (i 0).val < 64 := (i 0).isLt
  have hi1 : (i 1).val < 512 := (i 1).isLt
  show shapeCast S64x512 (Pipeline.withArrays (cfgs 0).spec c (V0 m c) (fun w => (dats m 0 c).arrAt w (cfgs 0).N)
      (Proc.devRef .tc main_v1_1)) shapeCasts_S64x512x1_S64x512 i = _
  rw [hW]
  refine (shapeCast_apply (s := S64x512x1) (t := S64x512) _ _ i
    (ix3 (⟨(i 0).val, hi0⟩ : Fin 64) (⟨(i 1).val, hi1⟩ : Fin 512) (0 : Fin 1)) ?_).trans ?_
  · rw [Shape.rowMajor_val_two, Shape.rowMajor_val_three]
    show ((i 0).val * 512 + (i 1).val) * 1 + 0 = (i 0).val * 512 + (i 1).val
    omega
  rfl

end Cert.KernelIdeal.MaskArray

end
-- ==== Proof.KerRun.lean ====
/-
  The kernel's whole program, run: both results as functions of the two arguments.

  The program reshapes the mask to 64 × 512 × 16 (one row of sixteen words per window), runs the 128 grid steps, and
  drops the unit axis of the window-mask column. After every weakly fair execution the patch array holds
  `Cert.Patcher.patches` of the input (`Cert.KernelIdeal.PatchArray.final_patches`: the 128 written blocks cover it),
  the second result holds `Cert.Patcher.windowMask` of the mask (`Cert.KernelIdeal.MaskArray.tail_mask`: the column the
  odd steps write back, with its unit axis dropped), and the two arguments are as they were.
-/
import proofs.«142915_j53042846106007_2_alg».proof.Proof.Gen.KernelIdeal.Frame
import proofs.«142915_j53042846106007_2_alg».proof.Proof.KerPatchArray
import proofs.«142915_j53042846106007_2_alg».proof.Proof.KerMaskArray

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Every weakly fair execution of the program ends with the patch array and the window mask of the arguments in its
    two results and with the arguments unchanged. -/
theorem run : θ_run defs (onTc (τ := τ) (main (F := Ideal))) ⟨m, fun _ => 0, ρ⟩ fun r => ∀ c : Dev nD,
      r.2.mem ((c.tc : Thread nD τ).loc main_v1_0) = Cert.Patcher.patches (m ((c.tc : Thread nD τ).loc main_arg0))
      ∧ r.2.mem ((c.tc : Thread nD τ).loc main_v2) = Cert.Patcher.windowMask (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).1 2).trans (Cert.KernelIdeal.PatchArray.final_patches m c),
        ((h c).2 main_v2 (Pipeline.mem_restRefs_of main_v2 (by decide) (by decide))).trans (Cert.KernelIdeal.MaskArray.tail_mask m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.Whole

end
-- ==== Proof.lean ====
/-
  A strided patcher against its reference, over the extended reals.

  The input is 64 series of 64 channels and 8192 time steps, with a 0/1 integer mask over (series, time step). Patch
  length and stride are both 16, so the time axis falls into 512 windows that do not overlap. Both programs return
  (1) the patch array, entry `(b, n, 16 c + p) = x (b, c, 16 n + p)` — a permutation of the input, no arithmetic — and
  (2) per series and window whether at least half of the window's sixteen mask words are set (their exact sum, divided
  by sixteen, compared with one half, as the number 1 or 0). The specification is Proof/Spec.lean.

  The kernel does it in 64 × 2 grid steps, one per series and half of the channels: a step re-lays its 32 × 8192 block
  as 512 × 512 (split the time axis, exchange channel and window, merge channel and position) and tests the row sums
  of its 512 × 16 table of mask words (Proof/KerPayload.lean); the written blocks cover the two output arrays
  (Proof/KerPatchArray.lean, Proof/KerMaskArray.lean), and the program around the steps only changes shapes
  (Proof/KerRun.lean). The reference gathers along the time axis at the table of time steps `16 n + p`, exchanges two
  axes and flattens; read at an index this is the same permutation, and its sum over a window starts from the zero word
  where the kernel's starts from nothing (Proof/RefIndex.lean, Proof/RefPatches.lean, Proof/RefMask.lean, over the
  reference's run in Proof/RefRun.lean and Proof/RefRead.lean). No law that needs finite inputs is used: the patch
  array moves entries without touching them, and the mask words are integers.

  The kernel's idealization rewrote nothing, so that claim is trivial; the three frames are the generated ones (the
  reference's is its run with the results dropped).
-/
import proofs.«142915_j53042846106007_2_alg».proof.Defs
import proofs.«142915_j53042846106007_2_alg».proof.Proof.Gen.Kernel
import proofs.«142915_j53042846106007_2_alg».proof.Proof.Gen.Kernel.Skeleton
import proofs.«142915_j53042846106007_2_alg».proof.Proof.Gen.Kernel.Launch
import proofs.«142915_j53042846106007_2_alg».proof.Proof.Gen.Kernel.Points
import proofs.«142915_j53042846106007_2_alg».proof.Proof.Gen.Kernel.Frame
import proofs.«142915_j53042846106007_2_alg».proof.Proof.Gen.KernelIdeal
import proofs.«142915_j53042846106007_2_alg».proof.Proof.Gen.KernelIdeal.Skeleton
import proofs.«142915_j53042846106007_2_alg».proof.Proof.Gen.KernelIdeal.Launch
import proofs.«142915_j53042846106007_2_alg».proof.Proof.Gen.KernelIdeal.Points
import proofs.«142915_j53042846106007_2_alg».proof.Proof.Gen.KernelIdeal.Frame
import proofs.«142915_j53042846106007_2_alg».proof.Proof.Gen.ReferenceIdeal
import proofs.«142915_j53042846106007_2_alg».proof.Proof.Gen.Pre_finite_inputs
import proofs.«142915_j53042846106007_2_alg».proof.Proof.RefRun
import proofs.«142915_j53042846106007_2_alg».proof.Proof.RefRead
import proofs.«142915_j53042846106007_2_alg».proof.Proof.RefPatches
import proofs.«142915_j53042846106007_2_alg».proof.Proof.RefMask
import proofs.«142915_j53042846106007_2_alg».proof.Proof.KerRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- Both programs end with the patch array and the window mask of arguments that agree. -/
theorem algebraic : Cert.algebraic_KernelIdeal_ReferenceIdeal := by
  intro m ρ m' ρ' _ hagree
  refine ⟨fun c => Cert.Patcher.patches (m ((c.tc : Thread Cert.KernelIdeal.nD Cert.KernelIdeal.τ).loc Cert.KernelIdeal.main_arg0)),
    fun c => Cert.Patcher.windowMask (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨?_, ?_, (h c).2.2.1, (h c).2.2.2⟩)
    (Cert.ReferenceIdeal.ValueP.run (F := Ideal) m' ρ')
  · rw [(h c).1, Cert.ReferenceIdeal.ReadP.val_main_v17_eq, Cert.ReferenceIdeal.Bridge.ref_patches, (hagree c).1]
  · rw [(h c).2.1, Cert.ReferenceIdeal.ReadP.val_main_v31_eq, Cert.ReferenceIdeal.Bridge.ref_mask, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
